-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S8x1 : Shape := ⟨2, ![8, 1]⟩
abbrev S8 : Shape := ⟨1, ![8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x1 : S_.BroadcastsInDim S8x1 (![] : Fin 0 → Fin S8x1.rank)
  reducesTo_S8x1_S_d0_1 : S8x1.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8x1 .f32) (main_arg8 : FVec F S8 .f32) (main_v33 : IVec S_ 1) : IVec S_ 1 :=
  let main_v34 : FVec F S8x1 .f32 := Host.absf main_arg7
  let main_cst_12 : FVec F S_ .f32 := constant S_ .f32 0x7F800000#32
  let main_v35 : FVec F S8x1 .f32 := broadcastInDim S8x1 ![] bcast_S_S8x1 main_cst_12
  let main_v36 : IVec S8x1 1 := cmpf .olt main_v34 main_v35
  let main_c_13 : IVec S_ 1 := constantI S_ 1 1#1
  let main_v37 : IVec S_ 1 := (fun x v => Host.reduce IntOp.andi x v reducesTo_S8x1_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S8x1 .f32) (main_arg8 : FVec F S8 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S8x1 .f32) (main_arg8 : FVec F S8 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S8x1 : Shape := ⟨2, ![8, 1]⟩
abbrev S8 : Shape := ⟨1, ![8]⟩
abbrev S1x1024 : Shape := ⟨2, ![1, 1024]⟩
abbrev S4096x8x1024 : Shape := ⟨3, ![4096, 8, 1024]⟩
abbrev S128x1024 : Shape := ⟨2, ![128, 1024]⟩
abbrev S128x8x1024 : Shape := ⟨3, ![128, 8, 1024]⟩
abbrev S128 : Shape := ⟨1, ![128]⟩
abbrev S128x1 : Shape := ⟨2, ![128, 1]⟩
abbrev S128x4096 : Shape := ⟨2, ![128, 4096]⟩
abbrev S1x8x1 : Shape := ⟨3, ![1, 8, 1]⟩
abbrev S128x1x1024 : Shape := ⟨3, ![128, 1, 1024]⟩

abbrev nBuf : Space → Nat
  | .hbm => 18
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x1, .f32⟩
  | .hbm, ⟨8, _⟩ => ⟨S8, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S8x1, .f32⟩
  | .hbm, ⟨17, _⟩ => ⟨S4096x8x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S4096x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S8x1, .f32⟩
  | .local _ .vmem, ⟨10, _⟩ => ⟨S8x1, .f32⟩
  | .local _ .vmem, ⟨11, _⟩ => ⟨S128x8x1024, .f32⟩
  | .local _ .vmem, ⟨12, _⟩ => ⟨S128x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S1024_S1x1024 : S1024.ShapeCasts S1x1024
  shapeCasts_S8_S8x1 : S8.ShapeCasts S8x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S128x4096_S128 : S128x4096.Reduces [1] S128
  broadcasts_S128x1_S128x4096 : S128x1.Broadcasts S128x4096
  inb_S8x1_S8x1_0_0 : ∀ a, (![0, 0] : Fin 2 → Nat) a + S8x1.size a ≤ S8x1.size a
  h_S8x1 : 0 < S8x1.numel
  shapeCasts_S8x1_S1x8x1 : S8x1.ShapeCasts S1x8x1
  shapeCasts_S8x1_S8x1 : S8x1.ShapeCasts S8x1
  shapeCasts_S128x1024_S128x1x1024 : S128x1024.ShapeCasts S128x1x1024
  broadcasts_S128x1x1024_S128x8x1024 : S128x1x1024.Broadcasts S128x8x1024
  broadcasts_S1x8x1_S128x8x1024 : S1x8x1.Broadcasts S128x8x1024
  inb_S128x8x1024_S128x8x1024_0_0_0 : ∀ a, (![0, 0, 0] : Fin 3 → Nat) a + S128x8x1024.size a ≤ S128x8x1024.size a
  h_S128x8x1024 : 0 < S128x8x1024.numel
  dot_S128x1024_S1024x1024_S128x1024_1_1_0_0_n_n_wf : DotDims.WF S128x1024 S1024x1024 S128x1024 [1] [1] [0] [0] [] []
  dot_S128x1024_S4096x1024_S128x4096_1_1_0_0_n_n_wf : DotDims.WF S128x1024 S4096x1024 S128x4096 [1] [1] [0] [0] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .bf16 = 32 ∨ (Rect.block (s := S4096x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S8x1.size a
  hwx0_8 : ∀ i : grid0.Coords, EltTy.bits .f32 = 32 ∨ (Rect.block (s := S8x1) S8x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x8x1024.size a ≤ S4096x8x1024.size a
  hwx0_9 : ∀ i : grid0.Coords, EltTy.bits .f32 = 32 ∨ (Rect.block (s := S4096x8x1024) S128x8x1024.size (cc0_transform_9 i) (hinb0_9 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S8x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S128x8x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S8x1 : Shape := ⟨2, ![8, 1]⟩
abbrev S8 : Shape := ⟨1, ![8]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S4096x1x1024 : Shape := ⟨3, ![4096, 1, 1024]⟩
abbrev S1x8x1 : Shape := ⟨3, ![1, 8, 1]⟩
abbrev S4096x8x1024 : Shape := ⟨3, ![4096, 8, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x1, .f32⟩
  | .hbm, ⟨8, _⟩ => ⟨S8, .f32⟩
  | .hbm, ⟨9, _⟩ => ⟨S1024x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1024x4096, .f32⟩
  | .hbm, ⟨30, _⟩ => ⟨S4096x4096, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1024x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x1024, .f32⟩
  | .hbm, ⟨59, _⟩ => ⟨S4096x1x1024, .f32⟩
  | .hbm, ⟨60, _⟩ => ⟨S8, .f32⟩
  | .hbm, ⟨61, _⟩ => ⟨S1x8x1, .f32⟩
  | .hbm, ⟨62, _⟩ => ⟨S4096x8x1024, .f32⟩
  | .hbm, ⟨63, _⟩ => ⟨S4096x8x1024, .f32⟩
  | .hbm, ⟨64, _⟩ => ⟨S4096x8x1024, .f32⟩
  | .hbm, ⟨65, _⟩ => ⟨S1x8x1, .f32⟩
  | .hbm, ⟨66, _⟩ => ⟨S4096x8x1024, .f32⟩
  | .hbm, ⟨67, _⟩ => ⟨S4096x8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  bcast_S4096x1024_S4096x1x1024_0_2 : S4096x1024.BroadcastsInDim S4096x1x1024 (![0, 2] : Fin 2 → Fin S4096x1x1024.rank)
  shapeCasts_S8x1_S8 : S8x1.ShapeCasts S8
  bcast_S8_S1x8x1_1 : S8.BroadcastsInDim S1x8x1 (![1] : Fin 1 → Fin S1x8x1.rank)
  bcast_S4096x1x1024_S4096x8x1024_0_1_2 : S4096x1x1024.BroadcastsInDim S4096x8x1024 (![0, 1, 2] : Fin 3 → Fin S4096x8x1024.rank)
  bcast_S1x8x1_S4096x8x1024_0_1_2 : S1x8x1.BroadcastsInDim S4096x8x1024 (![0, 1, 2] : Fin 3 → Fin S4096x8x1024.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  The function both programs compute, one output row at a time, on the extended reals.

  For one row `x` of the first input and one row `y` of the second, each of length 1024:
    * `affine` applies a linear layer: `(W x + b)_j = (∑_k x_k · W_{j,k}) + b_j`;
    * `direction` divides the vector by `max(‖·‖₂, tiny)`, the Euclidean length bounded below;
    * `score` against memory slot `q` is the inner product of slot `q` with the first direction plus the inner
      product of slot `q` with the second direction;
    * `share` is the softmax of the scores over the 4096 slots, shifted by their maximum `peak`;
    * `blend` mixes the memory slots with those shares;
    * `readout` expands the blended vector over 8 channels: entry `(k, h)` is `blend_h · wc_k + bc_k`.
  Sums are finite sums of extended reals, whose addition is commutative and associative, so the order in which
  either program accumulates them plays no part.
-/
import Idealize.ShloMosaic.PureOps.Ideal
import Idealize.ShloMosaic.PureOps.Ideal.Laws

noncomputable section

namespace Cert.Rows

open Idealize.ShloMosaic

/-- Minus infinity, the value the row maximum starts from. -/
abbrev negInf : EReal := Ideal.ofBits .f32 0xFF800000#32

/-- The lower bound put under a Euclidean length before dividing by it. -/
abbrev tiny : EReal := Ideal.ofBits .f32 0x2B8CBCCC#32

/-- Minus infinity is neutral for the maximum. -/
theorem max_negInf (y : EReal) : max negInf y = y := by
  show max (Ideal.ofBits .f32 0xFF800000#32) y = y
  simp [Ideal.ofBits, Ideal.ieee]

/-- Entry `j` of `W x + b`. -/
def affine (x : Fin 1024 → EReal) (W : Fin 1024 → Fin 1024 → EReal) (b : Fin 1024 → EReal) (j : Fin 1024) : EReal :=
  (∑ k : Fin 1024, x k * W j k) + b j

/-- The Euclidean length of `t`, bounded below by `tiny`. -/
def length (t : Fin 1024 → EReal) : EReal := max (Ideal.sqrt (∑ k : Fin 1024, t k * t k)) tiny

/-- Entry `j` of `t` divided by its bounded length. -/
def direction (t : Fin 1024 → EReal) (j : Fin 1024) : EReal := Ideal.div (t j) (length t)

/-- The score of memory slot `q`: its inner products with the two directions, added. -/
def score (u v : Fin 1024 → EReal) (M : Fin 4096 → Fin 1024 → EReal) (q : Fin 4096) : EReal :=
  (∑ k : Fin 1024, u k * M q k) + (∑ k : Fin 1024, v k * M q k)

/-- The largest score of a row. -/
def peak (s : Fin 4096 → EReal) : EReal := (Finset.univ : Finset (Fin 4096)).fold max negInf s

/-- The exponential of a score shifted by the row's largest. -/
def weight (s : Fin 4096 → EReal) (q : Fin 4096) : EReal := Ideal.exp (s q - peak s)

/-- The softmax share of slot `q`. -/
def share (s : Fin 4096 → EReal) (q : Fin 4096) : EReal := Ideal.div (weight s q) (∑ q' : Fin 4096, weight s q')

/-- Entry `h` of the memory slots mixed with weights `w`. -/
def blend (w : Fin 4096 → EReal) (M : Fin 4096 → Fin 1024 → EReal) (h : Fin 1024) : EReal := ∑ q : Fin 4096, w q * M q h

/-- The scores of one pair of input rows against every memory slot. -/
def scores (x y : Fin 1024 → EReal) (M : Fin 4096 → Fin 1024 → EReal) (Wa : Fin 1024 → Fin 1024 → EReal) (ba : Fin 1024 → EReal)
    (Wb : Fin 1024 → Fin 1024 → EReal) (bb : Fin 1024 → EReal) : Fin 4096 → EReal :=
  score (direction (affine x Wa ba)) (direction (affine y Wb bb)) M

/-- Entry `(k, h)` of the output rows belonging to one pair of input rows. -/
def readout (x y : Fin 1024 → EReal) (M : Fin 4096 → Fin 1024 → EReal) (Wa : Fin 1024 → Fin 1024 → EReal) (ba : Fin 1024 → EReal)
    (Wb : Fin 1024 → Fin 1024 → EReal) (bb : Fin 1024 → EReal) (wc bc : Fin 8 → EReal) (k : Fin 8) (h : Fin 1024) : EReal :=
  blend (share (scores x y M Wa ba Wb bb)) M h * wc k + bc k

end Cert.Rows

end
-- ==== Proof.RefRows.lean ====
/-
  The reference program read one output row at a time.

  Each stage of the reference (the two linear layers, the bounded Euclidean lengths, the two inner products with the
  memory slots, the row maximum, the exponentials, their sum, the softmax shares, the mixture of the memory slots and the
  expansion over the eight channels) is read at an index of its array and found to be the corresponding function of
  `Cert.Rows` of the rows that index names. A row of a matrix product is a sum over the contracted coordinate; a sum
  started from zero is the sum; the maximum started from minus infinity, and then once more compared with minus
  infinity, is the maximum.
-/
import proofs.«134933_j76132590289126_2_alg».proof.Proof.Gen.ReferenceIdeal.Read
import proofs.«134933_j76132590289126_2_alg».proof.Proof.Spec
import Idealize.ShloMosaic.Lib.ValueIdx
import Idealize.ShloMosaic.PureOps.Ideal.Laws

noncomputable section

namespace Cert.RefRows

open Cert.ReferenceIdeal Cert.ReferenceIdeal.Gen Cert.ReferenceIdeal.Read Cert.Rows Idealize.ShloMosaic Idealize.ShloMosaic.ValueIdx

macro "idx_eq1" : tactic => `(tactic| (funext a; apply Fin.ext; match a with | ⟨0, _⟩ => rfl))
macro "idx_eq2" : tactic => `(tactic| (funext a; apply Fin.ext; match a with | ⟨0, _⟩ => rfl | ⟨1, _⟩ => rfl))

/-- The contents of the arrays the reference reads, at the extended reals. -/
abbrev Big := (⟨S4096x1024, .f32⟩ : BufTy).Contents (Elt Ideal)
abbrev Sq := (⟨S1024x1024, .f32⟩ : BufTy).Contents (Elt Ideal)
abbrev Lin := (⟨S1024, .f32⟩ : BufTy).Contents (Elt Ideal)

/-- Row `r` of a 4096 × 1024 array. -/
abbrev row (x : Big) (r : Fin 4096) : Fin 1024 → EReal := fun k => x (ix2 r k)
/-- A 4096 × 1024 array as its 4096 rows. -/
abbrev slots (x : Big) : Fin 4096 → Fin 1024 → EReal := fun q k => x (ix2 q k)
/-- A 1024 × 1024 array by its two coordinates. -/
abbrev mat (x : Sq) : Fin 1024 → Fin 1024 → EReal := fun j k => x (ix2 j k)
/-- A vector of length 1024 by its coordinate. -/
abbrev vec (x : Lin) : Fin 1024 → EReal := fun j => x (ix1 j)

/-- The first linear layer at an index. -/
theorem ta_apply (x0 : Big) (x3 : Sq) (x4 : Lin) (i : S4096x1024.Idx) :
    val_main_v4 (F := Ideal) x0 x3 x4 i = affine (row x0 (i 0)) (mat x3) (vec x4) (i 1) := by
  rw [val_main_v4_apply, val_main_v1_apply, val_main_v3_apply, val_main_v2_apply]
  simp only [val_main_v0_apply]
  have e1 : ∀ k, lidx_main_v1 i k = ix2 (i 0) k := fun k => by idx_eq2
  have e2 : ∀ k, idx_main_v0 (ridx_main_v1 i k) = ix2 (i 1) k := fun k => by idx_eq2
  have e3 : idx_main_v2 (idx_main_v3 i) = ix1 (i 1) := by idx_eq1
  simp only [e1, e2, e3]
  rfl

/-- The second linear layer at an index. -/
theorem tb_apply (x1 : Big) (x5 : Sq) (x6 : Lin) (i : S4096x1024.Idx) :
    val_main_v9 (F := Ideal) x1 x5 x6 i = affine (row x1 (i 0)) (mat x5) (vec x6) (i 1) := by
  rw [val_main_v9_apply, val_main_v6_apply, val_main_v8_apply, val_main_v7_apply]
  simp only [val_main_v5_apply]
  have e1 : ∀ k, lidx_main_v6 i k = ix2 (i 0) k := fun k => by idx_eq2
  have e2 : ∀ k, idx_main_v5 (ridx_main_v6 i k) = ix2 (i 1) k := fun k => by idx_eq2
  have e3 : idx_main_v7 (idx_main_v8 i) = ix1 (i 1) := by idx_eq1
  simp only [e1, e2, e3]
  rfl

/-- The bounded length of a row of the first layer. -/
theorem na_apply (x0 : Big) (x3 : Sq) (x4 : Lin) (i : S4096x1.Idx) :
    val_main_v12 (F := Ideal) x0 x3 x4 i = length (affine (row x0 (i 0)) (mat x3) (vec x4)) := by
  rw [val_main_v12_apply, val_main_v10_apply, val_main_call0_v2_apply, val_main_call0_v1_apply, val_main_v11_apply,
    val_main_cst_apply, val_main_call0_cst_apply]
  simp only [val_main_call0_v0_apply, ta_apply, Ideal.ofBits_def, Ideal.ofBits_zero_f32, zero_add]
  rfl

/-- The bounded length of a row of the second layer. -/
theorem nb_apply (x1 : Big) (x5 : Sq) (x6 : Lin) (i : S4096x1.Idx) :
    val_main_v19 (F := Ideal) x1 x5 x6 i = length (affine (row x1 (i 0)) (mat x5) (vec x6)) := by
  rw [val_main_v19_apply, val_main_v17_apply, val_main_call1_v2_apply, val_main_call1_v1_apply, val_main_v18_apply,
    val_main_cst_0_apply, val_main_call1_cst_apply]
  simp only [val_main_call1_v0_apply, tb_apply, Ideal.ofBits_def, Ideal.ofBits_zero_f32, zero_add]
  rfl

/-- The first direction at an index. -/
theorem ua_apply (x0 : Big) (x3 : Sq) (x4 : Lin) (i : S4096x1024.Idx) :
    val_main_v14 (F := Ideal) x0 x3 x4 i = direction (affine (row x0 (i 0)) (mat x3) (vec x4)) (i 1) := by
  rw [val_main_v14_apply, val_main_v13_apply, na_apply, ta_apply]
  rfl

/-- The second direction at an index. -/
theorem ub_apply (x1 : Big) (x5 : Sq) (x6 : Lin) (i : S4096x1024.Idx) :
    val_main_v21 (F := Ideal) x1 x5 x6 i = direction (affine (row x1 (i 0)) (mat x5) (vec x6)) (i 1) := by
  rw [val_main_v21_apply, val_main_v20_apply, nb_apply, tb_apply]
  rfl

/-- The inner product of the first direction with a memory slot. -/
theorem ca_apply (x0 x2 : Big) (x3 : Sq) (x4 : Lin) (i : S4096x4096.Idx) :
    val_main_v16 (F := Ideal) x0 x2 x3 x4 i
      = ∑ k : Fin 1024, direction (affine (row x0 (i 0)) (mat x3) (vec x4)) k * slots x2 (i 1) k := by
  rw [val_main_v16_apply]
  simp only [ua_apply, val_main_v15_apply]
  have e : ∀ k, idx_main_v15 (ridx_main_v16 i k) = ix2 (i 1) k := fun k => by idx_eq2
  simp only [e]
  rfl

/-- The inner product of the second direction with a memory slot. -/
theorem cb_apply (x1 x2 : Big) (x5 : Sq) (x6 : Lin) (i : S4096x4096.Idx) :
    val_main_v23 (F := Ideal) x1 x2 x5 x6 i
      = ∑ k : Fin 1024, direction (affine (row x1 (i 0)) (mat x5) (vec x6)) k * slots x2 (i 1) k := by
  rw [val_main_v23_apply]
  simp only [ub_apply, val_main_v22_apply]
  have e : ∀ k, idx_main_v22 (ridx_main_v23 i k) = ix2 (i 1) k := fun k => by idx_eq2
  simp only [e]
  rfl

/-- The score of a memory slot for a row. -/
theorem s_apply (x0 x1 x2 : Big) (x3 : Sq) (x4 : Lin) (x5 : Sq) (x6 : Lin) (i : S4096x4096.Idx) :
    val_main_v24 (F := Ideal) x0 x1 x2 x3 x4 x5 x6 i
      = scores (row x0 (i 0)) (row x1 (i 0)) (slots x2) (mat x3) (vec x4) (mat x5) (vec x6) (i 1) := by
  rw [val_main_v24_apply, ca_apply, cb_apply]
  rfl

/-- The largest score of a row: the maximum over the slots from minus infinity, compared once more with minus infinity. -/
theorem peak_apply (x0 x1 x2 : Big) (x3 : Sq) (x4 : Lin) (x5 : Sq) (x6 : Lin) (i : S4096.Idx) :
    val_main_v27 (F := Ideal) x0 x1 x2 x3 x4 x5 x6 i
      = peak (scores (row x0 (i 0)) (row x1 (i 0)) (slots x2) (mat x3) (vec x4) (mat x5) (vec x6)) := by
  rw [val_main_v27_apply, val_main_v26_apply, val_main_cst_2_apply]
  unfold val_main_v25
  have h : S4096x4096.Reduces [1] S4096 := by decide
  rw [Host.reduce_eq_fold_single FloatOps.maximumf _ _ reducesTo_S4096x4096_S4096_d1 h h_S_, val_main_cst_1_apply]
  show max negInf (Finset.fold max negInf _ Finset.univ) = _
  rw [max_negInf]
  unfold peak
  refine congrArg (fun f => Finset.fold max negInf f Finset.univ) (funext fun k => ?_)
  rw [Function.comp_apply, s_apply]
  rfl

/-- The exponential of a score shifted by the row's largest. -/
theorem e_apply (x0 x1 x2 : Big) (x3 : Sq) (x4 : Lin) (x5 : Sq) (x6 : Lin) (i : S4096x4096.Idx) :
    val_main_v31 (F := Ideal) x0 x1 x2 x3 x4 x5 x6 i
      = weight (scores (row x0 (i 0)) (row x1 (i 0)) (slots x2) (mat x3) (vec x4) (mat x5) (vec x6)) (i 1) := by
  rw [val_main_v31_apply, val_main_v30_apply, val_main_v29_apply, val_main_v28_apply, peak_apply, s_apply]
  rfl

/-- The sum of a row's exponentials. -/
theorem den_apply (x0 x1 x2 : Big) (x3 : Sq) (x4 : Lin) (x5 : Sq) (x6 : Lin) (i : S4096.Idx) :
    val_main_v32 (F := Ideal) x0 x1 x2 x3 x4 x5 x6 i
      = ∑ q : Fin 4096, weight (scores (row x0 (i 0)) (row x1 (i 0)) (slots x2) (mat x3) (vec x4) (mat x5) (vec x6)) q := by
  rw [val_main_v32_apply, val_main_cst_3_apply]
  simp only [e_apply, Ideal.ofBits_def, Ideal.ofBits_zero_f32, zero_add]
  rfl

/-- The softmax share of a slot. -/
theorem w_apply (x0 x1 x2 : Big) (x3 : Sq) (x4 : Lin) (x5 : Sq) (x6 : Lin) (i : S4096x4096.Idx) :
    val_main_v35 (F := Ideal) x0 x1 x2 x3 x4 x5 x6 i
      = share (scores (row x0 (i 0)) (row x1 (i 0)) (slots x2) (mat x3) (vec x4) (mat x5) (vec x6)) (i 1) := by
  rw [val_main_v35_apply, val_main_v34_apply, val_main_v33_apply, den_apply, e_apply]
  rfl

/-- The memory slots mixed with a row's shares. -/
theorem wm_apply (x0 x1 x2 : Big) (x3 : Sq) (x4 : Lin) (x5 : Sq) (x6 : Lin) (i : S4096x1024.Idx) :
    val_main_v36 (F := Ideal) x0 x1 x2 x3 x4 x5 x6 i
      = blend (share (scores (row x0 (i 0)) (row x1 (i 0)) (slots x2) (mat x3) (vec x4) (mat x5) (vec x6))) (slots x2) (i 1) := by
  rw [val_main_v36_apply]
  simp only [w_apply]
  have e : ∀ k, ridx_main_v36 i k = ix2 k (i 1) := fun k => by idx_eq2
  simp only [e]
  rfl

/-- THE REFERENCE'S RESULT at an index `(r, k, h)`: the readout of rows `r` of the two inputs at channel `k`, entry `h`. -/
theorem out_apply (x0 x1 x2 : Big) (x3 : Sq) (x4 : Lin) (x5 : Sq) (x6 : Lin) (x7 : (⟨S8x1, .f32⟩ : BufTy).Contents (Elt Ideal))
    (x8 : (⟨S8, .f32⟩ : BufTy).Contents (Elt Ideal)) (i : S4096x8x1024.Idx) :
    val_main_v45 (F := Ideal) x0 x1 x2 x3 x4 x5 x6 x7 x8 i
      = readout (row x0 (i 0)) (row x1 (i 0)) (slots x2) (mat x3) (vec x4) (mat x5) (vec x6)
          (fun k => x7 (ix2 k 0)) (fun k => x8 (ix1 k)) (i 1) (i 2) := by
  rw [val_main_v45_apply, val_main_v42_apply, val_main_v40_apply, val_main_v37_apply, wm_apply, val_main_v41_apply,
    val_main_v39_apply, val_main_v38_apply, val_main_v44_apply, val_main_v43_apply]
  have e7 : idx_main_v38 (idx_main_v39 (idx_main_v41 i)) = ix2 (i 1) 0 := by
    funext a; apply Fin.ext
    match a with
    | ⟨0, _⟩ => exact Nat.div_one _
    | ⟨1, _⟩ => rfl
  have e8 : idx_main_v43 (idx_main_v44 i) = ix1 (i 1) := by idx_eq1
  rw [e7, e8]
  rfl

end Cert.RefRows

end
-- ==== Proof.LibLayoutCols.lean ====
/-
  Layout operations of small rank read at an index written by coordinates: the forms a kernel meets when it keeps a
  reduced axis as a unit axis (`keepdims`) and when it expands a matrix over a new middle axis.

  * a vector of length `a` cast to a column `[a, 1]`;
  * a column `[a, 1]` broadcast along its unit axis to `[a, b]`;
  * a matrix `[a, b]` cast to `[a, 1, b]`, and that broadcast along the new axis to `[a, k, b]`;
  * a column `[k, 1]` cast to `[1, k, 1]`, and that broadcast along both unit axes to `[a, k, b]`.
  A cast keeps the row-major position of an element; a broadcast reads coordinate `0` on the operand's unit axes.
-/
import Idealize.ShloMosaic.Lib.Pipeline.Value
import Idealize.ShloMosaic.Lib.ValueIdx

namespace Cert.LibLayoutCols

open Idealize.ShloMosaic Idealize.ShloMosaic.ValueIdx

variable {α : Type}

/-- A vector of length `a` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, 1, b]` reads, at `(p, u, c)`, the matrix at `(p, c)`. -/
theorem shapeCast_ab_a1b_apply {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An array `[a, 1, b]` broadcast to `[a, k, b]` reads, at `(p, q, c)`, the operand at `(p, 0, c)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (q : Fin k) (c : Fin b) :
    broadcastTo ⟨3, ![a, k, b]⟩ x h (ix3 p q c) = x (ix3 p (0 : Fin 1) c) := by
  refine broadcastTo_apply x h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A column `[k, 1]` cast to `[1, k, 1]` reads, at `(u, q, w)`, the column at row `q`. -/
theorem shapeCast_k1_1k1_apply {k : ℕ} (x : (⟨2, ![k, 1]⟩ : Shape).Idx → α) (h : (⟨2, ![k, 1]⟩ : Shape).ShapeCasts ⟨3, ![1, k, 1]⟩)
    (u : Fin 1) (q : Fin k) (w : Fin 1) : shapeCast ⟨3, ![1, k, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * k + q.val) * 1 + w.val
    rw [hu, hw, Nat.zero_mul, Nat.zero_add])

/-- An array `[1, k, 1]` broadcast to `[a, k, b]` reads, at `(p, q, c)`, the operand at `(0, q, 0)`. -/
theorem broadcastTo_1k1_akb_apply {a k b : ℕ} (x : (⟨3, ![1, k, 1]⟩ : Shape).Idx → α)
    (h : (⟨3, ![1, k, 1]⟩ : Shape).Broadcasts ⟨3, ![a, k, b]⟩) (p : Fin a) (q : Fin k) (c : Fin b) :
    broadcastTo ⟨3, ![a, k, b]⟩ x h (ix3 p q c) = x (ix3 (0 : Fin 1) q (0 : Fin 1)) := by
  refine broadcastTo_apply x h (ix3 p q c) (ix3 (0 : Fin 1) q (0 : Fin 1)) fun ax => ?_
  match ax with
  | ⟨0, _⟩ => rfl
  | ⟨1, _⟩ =>
    show q.val = if k = 1 then 0 else q.val
    split
    · have := q.isLt; omega
    · rfl
  | ⟨2, _⟩ => rfl

end Cert.LibLayoutCols
-- ==== Proof.KernelRows.lean ====
/-
  The kernel's arithmetic on one block of 128 rows, read one row at a time.

  The body computes, from a block of each input and the whole of the memory and of the two weight matrices: the two
  linear layers of the block, each row divided by its bounded Euclidean length, the scores of every memory slot for every
  row, the softmax of each row of scores, the mixture of the memory slots, and its expansion over the eight channels.
  Every step treats the 128 rows alike, so row `p` of the result is the function `Cert.Rows.readout` of row `p` of the
  two input blocks. A matrix product into a zero accumulator is a sum over the contracted coordinate; a reduction along
  the lanes of a row is the sum, or the maximum from minus infinity, over that row; a change of float format is the
  identity.
-/
import proofs.«134933_j76132590289126_2_alg».proof.Proof.Gen.KernelIdeal.Skeleton
import proofs.«134933_j76132590289126_2_alg».proof.Proof.Spec
import proofs.«134933_j76132590289126_2_alg».proof.Proof.LibLayoutCols
import Idealize.ShloMosaic.Lib.ValueIdx
import Idealize.ShloMosaic.Lib.ValueLayout
import Idealize.ShloMosaic.Lib.Pipeline.Value
import Idealize.ShloMosaic.PureOps.Ideal.Laws

noncomputable section

namespace Cert.KernelRows

open Cert.KernelIdeal Cert.KernelIdeal.Gen Cert.Rows Cert.LibLayoutCols Idealize.ShloMosaic Idealize.ShloMosaic.ValueIdx

/-- The product of a block with a square weight matrix, both contracted along their last axis. -/
abbrev D1 := dot_S128x1024_S1024x1024_S128x1024_1_1_0_0_n_n
/-- The product of a block with the memory, both contracted along their last axis. -/
abbrev D2 := dot_S128x1024_S4096x1024_S128x4096_1_1_0_0_n_n
/-- The product of a block of shares with the memory, contracted along the slots. -/
abbrev D3 := dot_S128x4096_S4096x1024_S128x1024_1_0_0_1_n_n

/-! ## The reductions along a row -/

/-- The lane sum of a row of a 128 × 1024 block. -/
theorem rowSum1024 (v : FVec Ideal S128x1024 .f32) (h : S128x1024.Reduces [1] S128) (hφ : FKind.Formats .f32)
    (hacc : (0x00000000#32 : BitVec 32) = 0x00000000#32) (p : Fin 128) :
    multiReduction .add [1] S128 v 0x00000000#32 h hφ hacc (ix1 p) = ∑ k : Fin 1024, v (ix2 p k) := by
  refine (Ideal.multiReduction_add_single v 0x00000000#32 h hφ hacc (ix1 p)).trans ?_
  exact Finset.sum_congr rfl fun k _ => congrArg v (by
    funext a; apply Fin.ext
    match a with
    | ⟨0, _⟩ => rfl
    | ⟨1, _⟩ => rfl)

/-- The lane sum of a row of a 128 × 4096 block. -/
theorem rowSum4096 (v : FVec Ideal S128x4096 .f32) (h : S128x4096.Reduces [1] S128) (hφ : FKind.Formats .f32)
    (hacc : (0x00000000#32 : BitVec 32) = 0x00000000#32) (p : Fin 128) :
    multiReduction .add [1] S128 v 0x00000000#32 h hφ hacc (ix1 p) = ∑ k : Fin 4096, v (ix2 p k) := by
  refine (Ideal.multiReduction_add_single v 0x00000000#32 h hφ hacc (ix1 p)).trans ?_
  exact Finset.sum_congr rfl fun k _ => congrArg v (by
    funext a; apply Fin.ext
    match a with
    | ⟨0, _⟩ => rfl
    | ⟨1, _⟩ => rfl)

/-- The lane maximum of a row of a 128 × 4096 block, from minus infinity. -/
theorem rowMax4096 (v : FVec Ideal S128x4096 .f32) (h : S128x4096.Reduces [1] S128) (hφ : FKind.Formats .f32)
    (hacc : (0xFF800000#32 : BitVec 32) = 0xFF800000#32) (p : Fin 128) :
    multiReduction .maximumf [1] S128 v 0xFF800000#32 h hφ hacc (ix1 p) = peak (fun q => v (ix2 p q)) := by
  refine (Ideal.multiReduction_maximumf_single v 0xFF800000#32 h hφ hacc (ix1 p)).trans ?_
  unfold peak
  exact congrArg (fun f => Finset.fold max negInf f Finset.univ) (funext fun k => congrArg v (by
    funext a; apply Fin.ext
    match a with
    | ⟨0, _⟩ => rfl
    | ⟨1, _⟩ => rfl))

/-! ## The three matrix products -/

theorem lhs1_0 (i : S128x1024.Idx) (q : D1.contr.Idx) : (D1.lhsIdx i q 0).val = (i 0).val := by
  unfold DotDims.lhsIdx
  rw [dif_neg (show ¬(0 : Fin S128x1024.rank) ∈ D1.lhsBatch by decide), dif_pos (show (0 : Fin S128x1024.rank) ∈ D1.lhsNonContracting by decide)]
  rfl
theorem rhs1_0 (i : S128x1024.Idx) (q : D1.contr.Idx) : (D1.rhsIdx i q 0).val = (i 1).val := by
  unfold DotDims.rhsIdx
  rw [dif_neg (show ¬(0 : Fin S1024x1024.rank) ∈ D1.rhsBatch by decide), dif_pos (show (0 : Fin S1024x1024.rank) ∈ D1.rhsNonContracting by decide)]
  rfl

/-- Entry `(p, j)` of a block times the transpose of a weight matrix. -/
theorem mm1_apply (l : FVec Ideal S128x1024 .bf16) (r : FVec Ideal S1024x1024 .bf16) (p : Fin 128) (j : Fin 1024) :
    matmul D1 none l r (constant (F := Ideal) S128x1024 .f32 0x00000000#32) (ix2 p j)
      = ∑ k : Fin 1024, l (ix2 p k) * r (ix2 j k) := by
  refine (Ideal.matmul_constant_zero_apply D1 none l r (ix2 p j)).trans ?_
  rw [← Equiv.sum_comp (contrEquiv1 D1 1024 rfl rfl).symm]
  refine Finset.sum_congr rfl fun k _ => ?_
  have hk := contrEquiv1_symm_val D1 1024 rfl rfl k
  have el : D1.lhsIdx (ix2 p j) ((contrEquiv1 D1 1024 rfl rfl).symm k) = ix2 p k := funext fun a => Fin.ext (by
    match a with
    | ⟨0, _⟩ => exact lhs1_0 _ _
    | ⟨1, _⟩ => exact (D1.lhsIdx_val_of_single rfl _ _).trans hk)
  have er : D1.rhsIdx (ix2 p j) ((contrEquiv1 D1 1024 rfl rfl).symm k) = ix2 j k := funext fun a => Fin.ext (by
    match a with
    | ⟨0, _⟩ => exact rhs1_0 _ _
    | ⟨1, _⟩ => exact (D1.rhsIdx_val_of_single rfl _ _).trans hk)
  rw [el, er]

theorem lhs2_0 (i : S128x4096.Idx) (q : D2.contr.Idx) : (D2.lhsIdx i q 0).val = (i 0).val := by
  unfold DotDims.lhsIdx
  rw [dif_neg (show ¬(0 : Fin S128x1024.rank) ∈ D2.lhsBatch by decide), dif_pos (show (0 : Fin S128x1024.rank) ∈ D2.lhsNonContracting by decide)]
  rfl
theorem rhs2_0 (i : S128x4096.Idx) (q : D2.contr.Idx) : (D2.rhsIdx i q 0).val = (i 1).val := by
  unfold DotDims.rhsIdx
  rw [dif_neg (show ¬(0 : Fin S4096x1024.rank) ∈ D2.rhsBatch by decide), dif_pos (show (0 : Fin S4096x1024.rank) ∈ D2.rhsNonContracting by decide)]
  rfl

/-- Entry `(p, q)` of a block times the transpose of the memory: the inner product of row `p` with slot `q`. -/
theorem mm2_apply (l : FVec Ideal S128x1024 .bf16) (r : FVec Ideal S4096x1024 .bf16) (p : Fin 128) (q : Fin 4096) :
    matmul D2 none l r (constant (F := Ideal) S128x4096 .f32 0x00000000#32) (ix2 p q)
      = ∑ k : Fin 1024, l (ix2 p k) * r (ix2 q k) := by
  refine (Ideal.matmul_constant_zero_apply D2 none l r (ix2 p q)).trans ?_
  rw [← Equiv.sum_comp (contrEquiv1 D2 1024 rfl rfl).symm]
  refine Finset.sum_congr rfl fun k _ => ?_
  have hk := contrEquiv1_symm_val D2 1024 rfl rfl k
  have el : D2.lhsIdx (ix2 p q) ((contrEquiv1 D2 1024 rfl rfl).symm k) = ix2 p k := funext fun a => Fin.ext (by
    match a with
    | ⟨0, _⟩ => exact lhs2_0 _ _
    | ⟨1, _⟩ => exact (D2.lhsIdx_val_of_single rfl _ _).trans hk)
  have er : D2.rhsIdx (ix2 p q) ((contrEquiv1 D2 1024 rfl rfl).symm k) = ix2 q k := funext fun a => Fin.ext (by
    match a with
    | ⟨0, _⟩ => exact rhs2_0 _ _
    | ⟨1, _⟩ => exact (D2.rhsIdx_val_of_single rfl _ _).trans hk)
  rw [el, er]

theorem lhs3_0 (i : S128x1024.Idx) (q : D3.contr.Idx) : (D3.lhsIdx i q 0).val = (i 0).val := by
  unfold DotDims.lhsIdx
  rw [dif_neg (show ¬(0 : Fin S128x4096.rank) ∈ D3.lhsBatch by decide), dif_pos (show (0 : Fin S128x4096.rank) ∈ D3.lhsNonContracting by decide)]
  rfl
theorem rhs3_1 (i : S128x1024.Idx) (q : D3.contr.Idx) : (D3.rhsIdx i q 1).val = (i 1).val := by
  unfold DotDims.rhsIdx
  rw [dif_neg (show ¬(1 : Fin S4096x1024.rank) ∈ D3.rhsBatch by decide), dif_pos (show (1 : Fin S4096x1024.rank) ∈ D3.rhsNonContracting by decide)]
  rfl

/-- Entry `(p, h)` of a block of shares times the memory: the slots mixed with row `p`'s shares. -/
theorem mm3_apply (l : FVec Ideal S128x4096 .bf16) (r : FVec Ideal S4096x1024 .bf16) (p : Fin 128) (c : Fin 1024) :
    matmul D3 none l r (constant (F := Ideal) S128x1024 .f32 0x00000000#32) (ix2 p c)
      = ∑ q : Fin 4096, l (ix2 p q) * r (ix2 q c) := by
  refine (Ideal.matmul_constant_zero_apply D3 none l r (ix2 p c)).trans ?_
  rw [← Equiv.sum_comp (contrEquiv1 D3 4096 rfl rfl).symm]
  refine Finset.sum_congr rfl fun k _ => ?_
  have hk := contrEquiv1_symm_val D3 4096 rfl rfl k
  have el : D3.lhsIdx (ix2 p c) ((contrEquiv1 D3 4096 rfl rfl).symm k) = ix2 p k := funext fun a => Fin.ext (by
    match a with
    | ⟨0, _⟩ => exact lhs3_0 _ _
    | ⟨1, _⟩ => exact (D3.lhsIdx_val_of_single rfl _ _).trans hk)
  have er : D3.rhsIdx (ix2 p c) ((contrEquiv1 D3 4096 rfl rfl).symm k) = ix2 k c := funext fun a => Fin.ext (by
    match a with
    | ⟨0, _⟩ => exact (D3.rhsIdx_val_of_single rfl _ _).trans hk
    | ⟨1, _⟩ => exact rhs3_1 _ _)
  rw [el, er]

/-! ## The steps of the body on a block, at a row -/

/-- A linear layer of the block: entry `(p, j)` is `affine` of row `p`. -/
theorem lin_apply (l : FVec Ideal S128x1024 .bf16) (r : FVec Ideal S1024x1024 .bf16) (b : FVec Ideal S1x1024 .f32)
    (hl : S128x1024.ShapeCasts S128x1024) (hr : S1024x1024.ShapeCasts S1024x1024) (hb : S1x1024.ShapeCasts S1x1024)
    (hbc : S1x1024.Broadcasts S128x1024) (p : Fin 128) (j : Fin 1024) :
    (addf (matmul D1 none (shapeCast S128x1024 l hl) (shapeCast S1024x1024 r hr) (constant (F := Ideal) S128x1024 .f32 0x00000000#32))
      (broadcastTo S128x1024 (shapeCast S1x1024 b hb) hbc) : FVec Ideal S128x1024 .f32) (ix2 p j)
      = affine (fun k => l (ix2 p k)) (fun j k => r (ix2 j k)) (fun j => b (ix2 (0 : Fin 1) j)) j := by
  rw [shapeCast_self, shapeCast_self, shapeCast_self]
  show matmul D1 none l r (constant (F := Ideal) S128x1024 .f32 0x00000000#32) (ix2 p j) + broadcastTo S128x1024 b hbc (ix2 p j) = _
  rw [mm1_apply, broadcastTo_1b_ab_apply]
  rfl

/-- A block divided row by row by the rows' bounded lengths: entry `(p, j)` is `direction` of row `p`. -/
theorem unit_apply (t : FVec Ideal S128x1024 .f32) (h : S128x1024.Reduces [1] S128) (hφ : FKind.Formats .f32)
    (hacc : (0x00000000#32 : BitVec 32) = 0x00000000#32) (hc : S128.ShapeCasts S128x1) (hb : S128x1.Broadcasts S128x1024)
    (hlt : FTy.bf16.bits < FTy.f32.bits) (p : Fin 128) (j : Fin 1024) :
    (truncf .bf16 (divf t (broadcastTo S128x1024 (maximumf (sqrt (shapeCast S128x1 (multiReduction .add [1] S128 (mulf t t) 0x00000000#32 h hφ hacc) hc))
        (broadcast S128x1 (Scalar.ofBits (F := Ideal) .f32 0x2B8CBCCC#32))) hb)) hlt : FVec Ideal S128x1024 .bf16) (ix2 p j)
      = direction (fun k => t (ix2 p k)) j := by
  show Ideal.div (t (ix2 p j)) (broadcastTo S128x1024 (maximumf (sqrt (shapeCast S128x1 (multiReduction .add [1] S128 (mulf t t) 0x00000000#32 h hφ hacc) hc))
        (broadcast S128x1 (Scalar.ofBits (F := Ideal) .f32 0x2B8CBCCC#32))) hb (ix2 p j)) = _
  rw [broadcastTo_a1_ab_apply]
  show Ideal.div (t (ix2 p j)) (max (Ideal.sqrt (shapeCast S128x1 (multiReduction .add [1] S128 (mulf t t) 0x00000000#32 h hφ hacc) hc (ix2 p (0 : Fin 1)))) tiny) = _
  rw [shapeCast_a_a1_apply, rowSum1024]
  rfl

/-- The scores of a block of directions against the memory. -/
theorem score_apply (u v : FVec Ideal S128x1024 .bf16) (M : FVec Ideal S4096x1024 .bf16) (p : Fin 128) (q : Fin 4096) :
    (addf (matmul D2 none u M (constant (F := Ideal) S128x4096 .f32 0x00000000#32))
      (matmul D2 none v M (constant (F := Ideal) S128x4096 .f32 0x00000000#32)) : FVec Ideal S128x4096 .f32) (ix2 p q)
      = score (fun k => u (ix2 p k)) (fun k => v (ix2 p k)) (fun q k => M (ix2 q k)) q := by
  show matmul D2 none u M (constant (F := Ideal) S128x4096 .f32 0x00000000#32) (ix2 p q)
    + matmul D2 none v M (constant (F := Ideal) S128x4096 .f32 0x00000000#32) (ix2 p q) = _
  rw [mm2_apply, mm2_apply]
  rfl

/-- The exponentials of a block of scores, each row shifted by its maximum. -/
theorem expo_apply (s : FVec Ideal S128x4096 .f32) (h : S128x4096.Reduces [1] S128) (hφ : FKind.Formats .f32)
    (hm : (0xFF800000#32 : BitVec 32) = 0xFF800000#32) (hc : S128.ShapeCasts S128x1) (hb : S128x1.Broadcasts S128x4096)
    (p : Fin 128) (q : Fin 4096) :
    (exp (subf s (broadcastTo S128x4096 (shapeCast S128x1 (multiReduction .maximumf [1] S128 s 0xFF800000#32 h hφ hm) hc) hb))
      : FVec Ideal S128x4096 .f32) (ix2 p q) = weight (fun q' => s (ix2 p q')) q := by
  show Ideal.exp (s (ix2 p q) - broadcastTo S128x4096 (shapeCast S128x1 (multiReduction .maximumf [1] S128 s 0xFF800000#32 h hφ hm) hc) hb (ix2 p q)) = _
  rw [broadcastTo_a1_ab_apply, shapeCast_a_a1_apply, rowMax4096]
  rfl

/-- The softmax of a block of scores, row by row. -/
theorem soft_apply (s : FVec Ideal S128x4096 .f32) (h : S128x4096.Reduces [1] S128) (hφ hφ' : FKind.Formats .f32)
    (hm : (0xFF800000#32 : BitVec 32) = 0xFF800000#32) (hz : (0x00000000#32 : BitVec 32) = 0x00000000#32)
    (hc : S128.ShapeCasts S128x1) (hb : S128x1.Broadcasts S128x4096) (hlt : FTy.bf16.bits < FTy.f32.bits) (p : Fin 128) (q : Fin 4096) :
    (truncf .bf16 (divf (exp (subf s (broadcastTo S128x4096 (shapeCast S128x1 (multiReduction .maximumf [1] S128 s 0xFF800000#32 h hφ hm) hc) hb)))
        (broadcastTo S128x4096 (shapeCast S128x1 (multiReduction .add [1] S128
          (exp (subf s (broadcastTo S128x4096 (shapeCast S128x1 (multiReduction .maximumf [1] S128 s 0xFF800000#32 h hφ hm) hc) hb)))
          0x00000000#32 h hφ' hz) hc) hb)) hlt : FVec Ideal S128x4096 .bf16) (ix2 p q)
      = share (fun q' => s (ix2 p q')) q := by
  show Ideal.div ((exp (subf s (broadcastTo S128x4096 (shapeCast S128x1 (multiReduction .maximumf [1] S128 s 0xFF800000#32 h hφ hm) hc) hb))
        : FVec Ideal S128x4096 .f32) (ix2 p q))
      (broadcastTo S128x4096 (shapeCast S128x1 (multiReduction .add [1] S128
          (exp (subf s (broadcastTo S128x4096 (shapeCast S128x1 (multiReduction .maximumf [1] S128 s 0xFF800000#32 h hφ hm) hc) hb)))
          0x00000000#32 h hφ' hz) hc) hb (ix2 p q)) = _
  rw [expo_apply, broadcastTo_a1_ab_apply, shapeCast_a_a1_apply, rowSum4096]
  exact congrArg (Ideal.div (weight (fun q' => s (ix2 p q')) q)) (Finset.sum_congr rfl fun k _ => expo_apply s h hφ hm hc hb p k)

/-- The expansion of a block over the eight channels: entry `(p, k, c)` is the block's `(p, c)` times channel `k`'s
    weight plus channel `k`'s bias. -/
theorem expand_apply (wm : FVec Ideal S128x1024 .f32) (wc bc : FVec Ideal S8x1 .f32) (h1 : S128x1024.ShapeCasts S128x1x1024)
    (h2 : S128x1x1024.Broadcasts S128x8x1024) (h3 : S8x1.ShapeCasts S1x8x1) (h4 : S1x8x1.Broadcasts S128x8x1024)
    (h5 : S8x1.ShapeCasts S8x1) (p : Fin 128) (k : Fin 8) (c : Fin 1024) :
    (addf (mulf (broadcastTo S128x8x1024 (shapeCast S128x1x1024 wm h1) h2) (broadcastTo S128x8x1024 (shapeCast S1x8x1 wc h3) h4))
      (broadcastTo S128x8x1024 (shapeCast S1x8x1 (shapeCast S8x1 bc h5) h3) h4) : FVec Ideal S128x8x1024 .f32) (ix3 p k c)
      = wm (ix2 p c) * wc (ix2 k (0 : Fin 1)) + bc (ix2 k (0 : Fin 1)) := by
  rw [shapeCast_self]
  show broadcastTo S128x8x1024 (shapeCast S128x1x1024 wm h1) h2 (ix3 p k c) * broadcastTo S128x8x1024 (shapeCast S1x8x1 wc h3) h4 (ix3 p k c)
    + broadcastTo S128x8x1024 (shapeCast S1x8x1 bc h3) h4 (ix3 p k c) = _
  rw [broadcastTo_a1b_akb_apply, broadcastTo_1k1_akb_apply, broadcastTo_1k1_akb_apply, shapeCast_ab_a1b_apply,
    shapeCast_k1_1k1_apply, shapeCast_k1_1k1_apply]

/-! ## The body's three values, at a row -/

/-- The first normalized block: row `p` is the direction of the first linear layer of row `p`. -/
theorem pay2_apply (v0 : FVec Ideal S128x1024 .bf16) (v4 : FVec Ideal S1024x1024 .bf16) (v7 : FVec Ideal S1x1024 .f32)
    (p : Fin 128) (j : Fin 1024) :
    k0_pay2 (F := Ideal) v0 v4 v7 (ix2 p j)
      = direction (affine (fun k => v0 (ix2 p k)) (fun j k => v4 (ix2 j k)) (fun j => v7 (ix2 (0 : Fin 1) j))) j := by
  refine (unit_apply _ _ _ _ _ _ _ p j).trans ?_
  exact congrArg (fun t => direction t j) (funext fun k => lin_apply v0 v4 v7 _ _ _ _ p k)

/-- The second normalized block, likewise. -/
theorem pay3_apply (v2 : FVec Ideal S128x1024 .bf16) (v11 : FVec Ideal S1024x1024 .bf16) (v14 : FVec Ideal S1x1024 .f32)
    (p : Fin 128) (j : Fin 1024) :
    k0_pay3 (F := Ideal) v2 v11 v14 (ix2 p j)
      = direction (affine (fun k => v2 (ix2 p k)) (fun j k => v11 (ix2 j k)) (fun j => v14 (ix2 (0 : Fin 1) j))) j := by
  refine (unit_apply _ _ _ _ _ _ _ p j).trans ?_
  exact congrArg (fun t => direction t j) (funext fun k => lin_apply v2 v11 v14 _ _ _ _ p k)

/-- The stored block from the two normalized blocks, the memory and the channel weights and biases: entry `(p, k, c)`
    mixes the memory slots with the softmax of row `p`'s scores and expands over channel `k`. -/
theorem pay1_apply (u v : FVec Ideal S128x1024 .bf16) (M : FVec Ideal S4096x1024 .bf16) (wc bc : FVec Ideal S8x1 .f32)
    (p : Fin 128) (k : Fin 8) (c : Fin 1024) :
    k0_pay1 (F := Ideal) u v M (constant (F := Ideal) S128x4096 .f32 0x00000000#32) wc bc (ix3 p k c)
      = blend (share (score (fun j => u (ix2 p j)) (fun j => v (ix2 p j)) (fun q j => M (ix2 q j)))) (fun q j => M (ix2 q j)) c
          * wc (ix2 k (0 : Fin 1)) + bc (ix2 k (0 : Fin 1)) := by
  refine (expand_apply _ wc bc _ _ _ _ _ p k c).trans ?_
  refine congrArg (fun x => x * wc (ix2 k (0 : Fin 1)) + bc (ix2 k (0 : Fin 1))) ?_
  refine (mm3_apply _ M p c).trans ?_
  unfold blend
  refine Finset.sum_congr rfl fun q _ => ?_
  refine congrArg (fun x => x * M (ix2 q c)) ?_
  refine (soft_apply _ _ _ _ _ _ _ _ _ p q).trans ?_
  exact congrArg (fun s => share s q) (funext fun q' => score_apply u v M p q')

end Cert.KernelRows

end
-- ==== Proof.Blocks.lean ====
/-
  From blocks to the array.

  The kernel runs on a grid of 32 points. Point `t` sees rows `128 t … 128 t + 127` of the two inputs, the whole of the
  memory, of the two weight matrices, of the two bias rows and of the channel weights and biases, and writes rows
  `128 t … 128 t + 127` of the output. The arrays it is given are the arguments themselves: the host only changes
  their float format (the identity here) or adds a unit axis to a bias vector. So what point `t` writes is block `t`
  of one whole-array function `result`, whose entry `(r, k, h)` is `Cert.Rows.readout` of rows `r` of the two inputs; the
  32 blocks cover the output, which therefore ends holding `result`.
-/
import proofs.«134933_j76132590289126_2_alg».proof.Proof.Gen.KernelIdeal.Value
import proofs.«134933_j76132590289126_2_alg».proof.Proof.KernelRows
import Idealize.ShloMosaic.Lib.Pipeline.Value
import Idealize.ShloMosaic.Lib.StableHlo.Run
import Idealize.ShloMosaic.Lib.ValueLayout
import Idealize.ShloMosaic.Lib.Tactic

noncomputable section

namespace Cert.KernelBlocks

open Cert.KernelIdeal Cert.KernelIdeal.Gen Cert.KernelIdeal.Value Cert.Rows Cert.KernelRows Cert.LibLayoutCols
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region is given -/

/-- The first input, its float format changed: the argument itself. -/
theorem V_v0 (c : Dev nD) : (V m c main_v0 : S4096x1024.Idx → EReal) = (m ((c : Thread nD τ).loc main_arg0) : S4096x1024.Idx → EReal) := by
  dsimp only [V, hostOps0]; after_results; rfl
theorem V_v1 (c : Dev nD) : (V m c main_v1 : S4096x1024.Idx → EReal) = (m ((c : Thread nD τ).loc main_arg1) : S4096x1024.Idx → EReal) := by
  dsimp only [V, hostOps0]; after_results; rfl
theorem V_v2 (c : Dev nD) : (V m c main_v2 : S4096x1024.Idx → EReal) = (m ((c : Thread nD τ).loc main_arg2) : S4096x1024.Idx → EReal) := by
  dsimp only [V, hostOps0]; after_results; rfl
theorem V_v3 (c : Dev nD) : (V m c main_v3 : S1024x1024.Idx → EReal) = (m ((c : Thread nD τ).loc main_arg3) : S1024x1024.Idx → EReal) := by
  dsimp only [V, hostOps0]; after_results; rfl
theorem V_v4 (c : Dev nD) : (V m c main_v4 : S1024x1024.Idx → EReal) = (m ((c : Thread nD τ).loc main_arg5) : S1024x1024.Idx → EReal) := by
  dsimp only [V, hostOps0]; after_results; rfl
/-- The first bias vector as a row. -/
theorem V_v5 (c : Dev nD) : (V m c main_v5 : S1x1024.Idx → EReal)
    = shapeCast S1x1024 (m ((c : Thread nD τ).loc main_arg4) : S1024.Idx → EReal) shapeCasts_S1024_S1x1024 := by
  dsimp only [V, hostOps0]; after_results; rfl
theorem V_v6 (c : Dev nD) : (V m c main_v6 : S1x1024.Idx → EReal)
    = shapeCast S1x1024 (m ((c : Thread nD τ).loc main_arg6) : S1024.Idx → EReal) shapeCasts_S1024_S1x1024 := by
  dsimp only [V, hostOps0]; after_results; rfl
/-- The channel biases as a column. -/
theorem V_v7 (c : Dev nD) : (V m c main_v7 : S8x1.Idx → EReal)
    = shapeCast S8x1 (m ((c : Thread nD τ).loc main_arg8) : S8.Idx → EReal) shapeCasts_S8_S8x1 := by
  dsimp only [V, hostOps0]; after_results; rfl

/-! ## The blocks' positions, decided over the 32 grid points -/

/-- The two input windows move with the output window along the rows and do not move along the columns. -/
theorem idx0 : ∀ t : Fin cfg0.N, win0_0.index t (0 : Fin 2) = win0_9.index t (0 : Fin 3) ∧ win0_0.index t (1 : Fin 2) = 0 :=
  (by decide +kernel : ∀ t : Fin grid0.N, win0_0.index t (0 : Fin 2) = win0_9.index t (0 : Fin 3) ∧ win0_0.index t (1 : Fin 2) = 0)
theorem idx1 : ∀ t : Fin cfg0.N, win0_1.index t (0 : Fin 2) = win0_9.index t (0 : Fin 3) ∧ win0_1.index t (1 : Fin 2) = 0 :=
  (by decide +kernel : ∀ t : Fin grid0.N, win0_1.index t (0 : Fin 2) = win0_9.index t (0 : Fin 3) ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- The output window is at block row `t` and does not move along the channels or the columns. -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)

/-! ## Each input block read at an index -/

/-- The array index of entry `y` of point `t`'s output block. -/
abbrev spot (t : Fin cfg0.N) (y : S128x8x1024.Idx) : S4096x8x1024.Idx := ((cfg0.win 9).blk t).view.emb y

/-- Row `y 0` of point `t`'s block of the first input is the input's row at the output block's array row. -/
theorem read0 (c : Dev nD) (t : Fin cfg0.N) (y : S128x8x1024.Idx) (j : Fin 1024) :
    (iblk m c 0 t : S128x1024.Idx → EReal) (ix2 (y 0) j) = (m ((c : Thread nD τ).loc main_arg0) : S4096x1024.Idx → EReal) (ix2 (spot t y 0) j) := by
  obtain ⟨e0, e1⟩ := idx0 t
  unfold iblk
  rw [View.read_apply]
  show (V m c main_v0 : S4096x1024.Idx → EReal) _ = _
  rw [V_v0]
  refine congrArg _ (funext fun ax => Fin.ext ?_)
  match ax with
  | ⟨0, _⟩ => show win0_0.index t (0 : Fin 2) * 128 + 1 * (y 0).val = win0_9.index t (0 : Fin 3) * 128 + 1 * (y 0).val; rw [e0]
  | ⟨1, _⟩ => show win0_0.index t (1 : Fin 2) * 1024 + 1 * j.val = j.val; rw [e1]; omega

/-- The same for the second input. -/
theorem read1 (c : Dev nD) (t : Fin cfg0.N) (y : S128x8x1024.Idx) (j : Fin 1024) :
    (iblk m c 1 t : S128x1024.Idx → EReal) (ix2 (y 0) j) = (m ((c : Thread nD τ).loc main_arg1) : S4096x1024.Idx → EReal) (ix2 (spot t y 0) j) := by
  obtain ⟨e0, e1⟩ := idx1 t
  unfold iblk
  rw [View.read_apply]
  show (V m c main_v1 : S4096x1024.Idx → EReal) _ = _
  rw [V_v1]
  refine congrArg _ (funext fun ax => Fin.ext ?_)
  match ax with
  | ⟨0, _⟩ => show win0_1.index t (0 : Fin 2) * 128 + 1 * (y 0).val = win0_9.index t (0 : Fin 3) * 128 + 1 * (y 0).val; rw [e0]
  | ⟨1, _⟩ => show win0_1.index t (1 : Fin 2) * 1024 + 1 * j.val = j.val; rw [e1]; omega

/-- The memory, the two weight matrices: every point sees the whole array. -/
theorem read2 (c : Dev nD) (t : Fin cfg0.N) (a : Fin 4096) (b : Fin 1024) :
    (iblk m c 2 t : S4096x1024.Idx → EReal) (ix2 a b) = (m ((c : Thread nD τ).loc main_arg2) : S4096x1024.Idx → EReal) (ix2 a b) := by
  obtain ⟨e0, e1⟩ := idx2 t
  unfold iblk
  rw [View.read_apply]
  show (V m c main_v2 : S4096x1024.Idx → EReal) _ = _
  rw [V_v2]
  refine congrArg _ (funext fun ax => Fin.ext ?_)
  match ax with
  | ⟨0, _⟩ => show win0_2.index t (0 : Fin 2) * 4096 + 1 * a.val = a.val; rw [e0]; omega
  | ⟨1, _⟩ => show win0_2.index t (1 : Fin 2) * 1024 + 1 * b.val = b.val; rw [e1]; omega
theorem read3 (c : Dev nD) (t : Fin cfg0.N) (a : Fin 1024) (b : Fin 1024) :
    (iblk m c 3 t : S1024x1024.Idx → EReal) (ix2 a b) = (m ((c : Thread nD τ).loc main_arg3) : S1024x1024.Idx → EReal) (ix2 a b) := by
  obtain ⟨e0, e1⟩ := idx3 t
  unfold iblk
  rw [View.read_apply]
  show (V m c main_v3 : S1024x1024.Idx → EReal) _ = _
  rw [V_v3]
  refine congrArg _ (funext fun ax => Fin.ext ?_)
  match ax with
  | ⟨0, _⟩ => show win0_3.index t (0 : Fin 2) * 1024 + 1 * a.val = a.val; rw [e0]; omega
  | ⟨1, _⟩ => show win0_3.index t (1 : Fin 2) * 1024 + 1 * b.val = b.val; rw [e1]; omega
theorem read4 (c : Dev nD) (t : Fin cfg0.N) (a : Fin 1024) (b : Fin 1024) :
    (iblk m c 4 t : S1024x1024.Idx → EReal) (ix2 a b) = (m ((c : Thread nD τ).loc main_arg5) : S1024x1024.Idx → EReal) (ix2 a b) := by
  obtain ⟨e0, e1⟩ := idx4 t
  unfold iblk
  rw [View.read_apply]
  show (V m c main_v4 : S1024x1024.Idx → EReal) _ = _
  rw [V_v4]
  refine congrArg _ (funext fun ax => Fin.ext ?_)
  match ax with
  | ⟨0, _⟩ => show win0_4.index t (0 : Fin 2) * 1024 + 1 * a.val = a.val; rw [e0]; omega
  | ⟨1, _⟩ => show win0_4.index t (1 : Fin 2) * 1024 + 1 * b.val = b.val; rw [e1]; omega

/-- The two bias rows: the bias vectors with a unit axis in front. -/
theorem read5 (c : Dev nD) (t : Fin cfg0.N) (j : Fin 1024) :
    (iblk m c 5 t : S1x1024.Idx → EReal) (ix2 (0 : Fin 1) j) = (m ((c : Thread nD τ).loc main_arg4) : S1024.Idx → EReal) (ix1 j) := by
  obtain ⟨e0, e1⟩ := idx5 t
  unfold iblk
  rw [View.read_apply]
  show (V m c main_v5 : S1x1024.Idx → EReal) _ = _
  rw [V_v5]
  have e : (((cfg0.win 5).blk t).view.emb (ix2 (0 : Fin 1) j) : S1x1024.Idx) = ix2 (0 : Fin 1) j := funext fun ax => Fin.ext (by
    match ax with
    | ⟨0, _⟩ => show win0_5.index t (0 : Fin 2) * 1 + 1 * 0 = 0; rw [e0]
    | ⟨1, _⟩ => show win0_5.index t (1 : Fin 2) * 1024 + 1 * j.val = j.val; rw [e1]; omega)
  rw [e]
  exact shapeCast_a_1a_apply _ _ (0 : Fin 1) j
theorem read6 (c : Dev nD) (t : Fin cfg0.N) (j : Fin 1024) :
    (iblk m c 6 t : S1x1024.Idx → EReal) (ix2 (0 : Fin 1) j) = (m ((c : Thread nD τ).loc main_arg6) : S1024.Idx → EReal) (ix1 j) := by
  obtain ⟨e0, e1⟩ := idx6 t
  unfold iblk
  rw [View.read_apply]
  show (V m c main_v6 : S1x1024.Idx → EReal) _ = _
  rw [V_v6]
  have e : (((cfg0.win 6).blk t).view.emb (ix2 (0 : Fin 1) j) : S1x1024.Idx) = ix2 (0 : Fin 1) j := funext fun ax => Fin.ext (by
    match ax with
    | ⟨0, _⟩ => show win0_6.index t (0 : Fin 2) * 1 + 1 * 0 = 0; rw [e0]
    | ⟨1, _⟩ => show win0_6.index t (1 : Fin 2) * 1024 + 1 * j.val = j.val; rw [e1]; omega)
  rw [e]
  exact shapeCast_a_1a_apply _ _ (0 : Fin 1) j

/-- The channel weights: the argument itself. -/
theorem read7 (c : Dev nD) (t : Fin cfg0.N) (k : Fin 8) :
    (iblk m c 7 t : S8x1.Idx → EReal) (ix2 k (0 : Fin 1)) = (m ((c : Thread nD τ).loc main_arg7) : S8x1.Idx → EReal) (ix2 k (0 : Fin 1)) := by
  obtain ⟨e0, e1⟩ := idx7 t
  unfold iblk
  rw [View.read_apply]
  show (V m c main_arg7 : S8x1.Idx → EReal) _ = _
  rw [V_main_arg7]
  refine congrArg _ (funext fun ax => Fin.ext ?_)
  match ax with
  | ⟨0, _⟩ => show win0_7.index t (0 : Fin 2) * 8 + 1 * k.val = k.val; rw [e0]; omega
  | ⟨1, _⟩ => show win0_7.index t (1 : Fin 2) * 1 + 1 * 0 = 0; rw [e1]

/-- The channel biases: the bias vector with a unit axis behind. -/
theorem read8 (c : Dev nD) (t : Fin cfg0.N) (k : Fin 8) :
    (iblk m c 8 t : S8x1.Idx → EReal) (ix2 k (0 : Fin 1)) = (m ((c : Thread nD τ).loc main_arg8) : S8.Idx → EReal) (ix1 k) := by
  obtain ⟨e0, e1⟩ := idx8 t
  unfold iblk
  rw [View.read_apply]
  show (V m c main_v7 : S8x1.Idx → EReal) _ = _
  rw [V_v7]
  have e : (((cfg0.win 8).blk t).view.emb (ix2 k (0 : Fin 1)) : S8x1.Idx) = ix2 k (0 : Fin 1) := funext fun ax => Fin.ext (by
    match ax with
    | ⟨0, _⟩ => show win0_8.index t (0 : Fin 2) * 8 + 1 * k.val = k.val; rw [e0]; omega
    | ⟨1, _⟩ => show win0_8.index t (1 : Fin 2) * 1 + 1 * 0 = 0; rw [e1])
  rw [e]
  exact shapeCast_a_a1_apply _ _ k (0 : Fin 1)

/-! ## What the body leaves in the output block -/

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(p, k, h)` of the block the body stores, from the nine input blocks: the readout of rows `p` of the two
    input blocks. -/
theorem out_block_ix (x0 x1 : FVec Ideal S128x1024 .bf16) (x2 : FVec Ideal S4096x1024 .bf16) (x3 x4 : FVec Ideal S1024x1024 .bf16)
    (x5 x6 : FVec Ideal S1x1024 .f32) (x7 x8 : FVec Ideal S8x1 .f32) (p : Fin 128) (k : Fin 8) (h : Fin 1024) :
    out0_9 (F := Ideal) x0 x1 x2 x3 x4 x5 x6 x7 x8 (ix3 p k h)
      = readout (fun j => x0 (ix2 p j)) (fun j => x1 (ix2 p j)) (fun q j => x2 (ix2 q j)) (fun j k => x3 (ix2 j k))
          (fun j => x5 (ix2 (0 : Fin 1) j)) (fun j k => x4 (ix2 j k)) (fun j => x6 (ix2 (0 : Fin 1) j))
          (fun k => x7 (ix2 k (0 : Fin 1))) (fun k => x8 (ix2 k (0 : Fin 1))) k h := by
  unfold out0_9
  rw [View.canon_unit_zero hz3]
  simp only [View.ld_unit_zero (S := S128x1024) hz2, View.ld_unit_zero (S := S1024x1024) hz2, View.ld_unit_zero (S := S1x1024) hz2,
    View.ld_unit_zero (S := S4096x1024) hz2, View.ld_unit_zero (S := S8x1) hz2]
  refine (pay1_apply _ _ _ x7 x8 p k h).trans ?_
  have ea : (fun j => k0_pay2 (F := Ideal) x0 x3 x5 (ix2 p j))
      = direction (affine (fun k => x0 (ix2 p k)) (fun j k => x3 (ix2 j k)) (fun j => x5 (ix2 (0 : Fin 1) j))) :=
    funext fun j => pay2_apply x0 x3 x5 p j
  have eb : (fun j => k0_pay3 (F := Ideal) x1 x4 x6 (ix2 p j))
      = direction (affine (fun k => x1 (ix2 p k)) (fun j k => x4 (ix2 j k)) (fun j => x6 (ix2 (0 : Fin 1) j))) :=
    funext fun j => pay3_apply x1 x4 x6 p j
  have eM : (fun (q : Fin 4096) (j : Fin 1024) => k0_pay4 (F := Ideal) x2 (ix2 q j)) = fun q j => x2 (ix2 q j) := by
    funext q j; unfold k0_pay4; rw [shapeCast_self]
  rw [ea, eb, eM]
  rfl

/-- The same at any index of the block. -/
theorem out_block (x0 x1 : FVec Ideal S128x1024 .bf16) (x2 : FVec Ideal S4096x1024 .bf16) (x3 x4 : FVec Ideal S1024x1024 .bf16)
    (x5 x6 : FVec Ideal S1x1024 .f32) (x7 x8 : FVec Ideal S8x1 .f32) (y : S128x8x1024.Idx) :
    out0_9 (F := Ideal) x0 x1 x2 x3 x4 x5 x6 x7 x8 y
      = readout (fun j => x0 (ix2 (y 0) j)) (fun j => x1 (ix2 (y 0) j)) (fun q j => x2 (ix2 q j)) (fun j k => x3 (ix2 j k))
          (fun j => x5 (ix2 (0 : Fin 1) j)) (fun j k => x4 (ix2 j k)) (fun j => x6 (ix2 (0 : Fin 1) j))
          (fun k => x7 (ix2 k (0 : Fin 1))) (fun k => x8 (ix2 k (0 : Fin 1))) (y 1) (y 2) :=
  (congrArg (out0_9 (F := Ideal) x0 x1 x2 x3 x4 x5 x6 x7 x8) (eq_ix3 y)).trans (out_block_ix x0 x1 x2 x3 x4 x5 x6 x7 x8 (y 0) (y 1) (y 2))

/-! ## The output array after the run -/

/-- THE RESULT: entry `(r, k, h)` is the readout of rows `r` of the two inputs at channel `k`, column `h`. -/
def result (c : Dev nD) : S4096x8x1024.Idx → EReal := fun i =>
  readout (fun j => (m ((c : Thread nD τ).loc main_arg0) : S4096x1024.Idx → EReal) (ix2 (i 0) j)) (fun j => (m ((c : Thread nD τ).loc main_arg1) : S4096x1024.Idx → EReal) (ix2 (i 0) j))
    (fun q j => (m ((c : Thread nD τ).loc main_arg2) : S4096x1024.Idx → EReal) (ix2 q j)) (fun j k => (m ((c : Thread nD τ).loc main_arg3) : S1024x1024.Idx → EReal) (ix2 j k)) (fun j => (m ((c : Thread nD τ).loc main_arg4) : S1024.Idx → EReal) (ix1 j))
    (fun j k => (m ((c : Thread nD τ).loc main_arg5) : S1024x1024.Idx → EReal) (ix2 j k)) (fun j => (m ((c : Thread nD τ).loc main_arg6) : S1024.Idx → EReal) (ix1 j))
    (fun k => (m ((c : Thread nD τ).loc main_arg7) : S8x1.Idx → EReal) (ix2 k (0 : Fin 1))) (fun k => (m ((c : Thread nD τ).loc main_arg8) : S8.Idx → EReal) (ix1 k)) (i 1) (i 2)

/-- WHAT POINT `t` WRITES BACK is block `t` of `result`. -/
theorem flushed_eq (c : Dev nD) (t : Fin cfg0.N) :
    (dats m 0 c).flushed 9 t = ((cfg0.win 9).blk t).view.read (Elt Ideal) (result m c) := by
  rw [flushed9]
  funext y
  show out0_9 (F := Ideal) (iblk m c 0 t) (iblk m c 1 t) (iblk m c 2 t) (iblk m c 3 t) (iblk m c 4 t) (iblk m c 5 t) (iblk m c 6 t)
    (iblk m c 7 t) (iblk m c 8 t) y = result m c (spot t y)
  refine (out_block (iblk m c 0 t) (iblk m c 1 t) (iblk m c 2 t) (iblk m c 3 t) (iblk m c 4 t) (iblk m c 5 t) (iblk m c 6 t)
    (iblk m c 7 t) (iblk m c 8 t) y).trans ?_
  obtain ⟨-, e1, e2⟩ := idx9 t
  have h1 : spot t y 1 = y 1 := Fin.ext (by
    show win0_9.index t (1 : Fin 3) * 8 + 1 * (y 1).val = (y 1).val; rw [e1]; omega)
  have h2 : spot t y 2 = y 2 := Fin.ext (by
    show win0_9.index t (2 : Fin 3) * 1024 + 1 * (y 2).val = (y 2).val; rw [e2]; omega)
  have r0 : (fun j => (iblk m c 0 t : S128x1024.Idx → EReal) (ix2 (y 0) j)) = fun j => (m ((c : Thread nD τ).loc main_arg0) : S4096x1024.Idx → EReal) (ix2 (spot t y 0) j) :=
    funext fun j => read0 m c t y j
  have r1 : (fun j => (iblk m c 1 t : S128x1024.Idx → EReal) (ix2 (y 0) j)) = fun j => (m ((c : Thread nD τ).loc main_arg1) : S4096x1024.Idx → EReal) (ix2 (spot t y 0) j) :=
    funext fun j => read1 m c t y j
  have r2 : (fun (q : Fin 4096) (j : Fin 1024) => (iblk m c 2 t : S4096x1024.Idx → EReal) (ix2 q j)) = fun q j => (m ((c : Thread nD τ).loc main_arg2) : S4096x1024.Idx → EReal) (ix2 q j) :=
    funext fun q => funext fun j => read2 m c t q j
  have r3 : (fun (j k : Fin 1024) => (iblk m c 3 t : S1024x1024.Idx → EReal) (ix2 j k)) = fun j k => (m ((c : Thread nD τ).loc main_arg3) : S1024x1024.Idx → EReal) (ix2 j k) :=
    funext fun j => funext fun k => read3 m c t j k
  have r4 : (fun (j k : Fin 1024) => (iblk m c 4 t : S1024x1024.Idx → EReal) (ix2 j k)) = fun j k => (m ((c : Thread nD τ).loc main_arg5) : S1024x1024.Idx → EReal) (ix2 j k) :=
    funext fun j => funext fun k => read4 m c t j k
  have r5 : (fun (j : Fin 1024) => (iblk m c 5 t : S1x1024.Idx → EReal) (ix2 (0 : Fin 1) j)) = fun j => (m ((c : Thread nD τ).loc main_arg4) : S1024.Idx → EReal) (ix1 j) :=
    funext fun j => read5 m c t j
  have r6 : (fun (j : Fin 1024) => (iblk m c 6 t : S1x1024.Idx → EReal) (ix2 (0 : Fin 1) j)) = fun j => (m ((c : Thread nD τ).loc main_arg6) : S1024.Idx → EReal) (ix1 j) :=
    funext fun j => read6 m c t j
  have r7 : (fun (k : Fin 8) => (iblk m c 7 t : S8x1.Idx → EReal) (ix2 k (0 : Fin 1))) = fun k => (m ((c : Thread nD τ).loc main_arg7) : S8x1.Idx → EReal) (ix2 k (0 : Fin 1)) :=
    funext fun k => read7 m c t k
  have r8 : (fun (k : Fin 8) => (iblk m c 8 t : S8x1.Idx → EReal) (ix2 k (0 : Fin 1))) = fun k => (m ((c : Thread nD τ).loc main_arg8) : S8.Idx → EReal) (ix1 k) :=
    funext fun k => read8 m c t k
  rw [r0, r1, r2, r3, r4, r5, r6, r7, r8]
  unfold result
  rw [h1, h2]

/-- An index of the array is in point `t`'s block iff each coordinate is in the block's range on its axis. -/
theorem mem_blk (t : Fin cfg0.N) (i : S4096x8x1024.Idx) :
    i ∈ ((cfg0.win 9).blk t).view.set ↔ ∀ a : Fin 3, win0_9.index t a * S128x8x1024.size a ≤ (i a).val
      ∧ (i a).val < win0_9.index t a * S128x8x1024.size a + S128x8x1024.size a := by
  show i ∈ ((View.whole main_v8).slice (win0_9.rect t)).set ↔ _
  rw [View.set_slice_whole, Rect.mem_set_unit]
  exact Iff.rfl

/-- Every index of the output is in some point's block: row `r` is in block `r / 128`. -/
theorem cover (i : S4096x8x1024.Idx) : ∃ t : Fin cfg0.N, (cfg0.win 9).flush t = true ∧ i ∈ ((cfg0.win 9).blk t).view.set := by
  have hi0 : (i 0).val < 4096 := (i 0).isLt
  have hi1 : (i 1).val < 8 := (i 1).isLt
  have hi2 : (i 2).val < 1024 := (i 2).isLt
  have hN : grid0.N = 32 := N_0
  obtain ⟨t, ht⟩ : ∃ t : Fin cfg0.N, t.val = (i 0).val / 128 := ⟨⟨(i 0).val / 128, by show (i 0).val / 128 < grid0.N; rw [hN]; omega⟩, rfl⟩
  refine ⟨t, flush0_9 t, ?_⟩
  obtain ⟨e0, e1, e2⟩ := idx9 t
  rw [mem_blk]
  intro a
  match a with
  | ⟨0, _⟩ =>
    show win0_9.index t (0 : Fin 3) * 128 ≤ (i 0).val ∧ (i 0).val < win0_9.index t (0 : Fin 3) * 128 + 128
    rw [e0, ht]; omega
  | ⟨1, _⟩ =>
    show win0_9.index t (1 : Fin 3) * 8 ≤ (i 1).val ∧ (i 1).val < win0_9.index t (1 : Fin 3) * 8 + 8
    rw [e1]; omega
  | ⟨2, _⟩ =>
    show win0_9.index t (2 : Fin 3) * 1024 ≤ (i 2).val ∧ (i 2).val < win0_9.index t (2 : Fin 3) * 1024 + 1024
    rw [e2]; omega

/-- THE OUTPUT ARRAY after the run is `result`. -/
theorem final (c : Dev nD) : (dats m 0 c).arrAt 9 cfg0.N = result m c :=
  (dats m 0 c).arrAt_eq_of_cover 9 (result m c) (fun t _ => flushed_eq m c t) cover

/-- The kernel's run, read: the output array ends at `result`, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelBlocks

end
-- ==== Proof.lean ====
/-
  The kernel and its reference compute one function on the extended reals.

  Both programs take two inputs of 4096 rows, a memory of 4096 slots, two linear layers, and eight channel weights and
  biases. For each row they apply a linear layer to each input row, divide each by its Euclidean length bounded below,
  score every memory slot by the sum of its inner products with the two directions, take the softmax of the scores,
  mix the memory slots with the softmax shares, and expand the mixture over the eight channels
  (`Cert.Rows.readout`, Proof/Spec.lean).

  The reference does this on whole arrays (Proof/RefRows.lean reads its stages one index at a time). The kernel does it on
  32 blocks of 128 rows with its matrix operands in a shorter float format, which changes nothing at the extended reals;
  each block holds the same function of its rows (Proof/KernelRows.lean), and the blocks tile the output
  (Proof/Blocks.lean). The two sums a matrix product and a row reduction stand for are finite sums of extended reals,
  whose addition is commutative and associative, and the reference's extra comparison of the row maximum with minus
  infinity changes nothing: no property of the inputs is needed, so the finiteness precondition is never opened.

  The three frame claims are the generated frames of the two kernels and the reference's generated run with its result
  dropped; the idealization rewrote no operation, so its claim is trivial.
-/
import proofs.«134933_j76132590289126_2_alg».proof.Defs
import proofs.«134933_j76132590289126_2_alg».proof.Proof.Gen.Kernel
import proofs.«134933_j76132590289126_2_alg».proof.Proof.Gen.Kernel.Skeleton
import proofs.«134933_j76132590289126_2_alg».proof.Proof.Gen.Kernel.Launch
import proofs.«134933_j76132590289126_2_alg».proof.Proof.Gen.Kernel.Points
import proofs.«134933_j76132590289126_2_alg».proof.Proof.Gen.Kernel.Frame
import proofs.«134933_j76132590289126_2_alg».proof.Proof.Gen.KernelIdeal
import proofs.«134933_j76132590289126_2_alg».proof.Proof.Gen.KernelIdeal.Skeleton
import proofs.«134933_j76132590289126_2_alg».proof.Proof.Gen.KernelIdeal.Launch
import proofs.«134933_j76132590289126_2_alg».proof.Proof.Gen.KernelIdeal.Points
import proofs.«134933_j76132590289126_2_alg».proof.Proof.Gen.KernelIdeal.Frame
import proofs.«134933_j76132590289126_2_alg».proof.Proof.Gen.ReferenceIdeal
import proofs.«134933_j76132590289126_2_alg».proof.Proof.Gen.Pre_finite_inputs
import proofs.«134933_j76132590289126_2_alg».proof.Proof.Gen.KernelIdeal.Value
import proofs.«134933_j76132590289126_2_alg».proof.Proof.Gen.ReferenceIdeal.Run
import proofs.«134933_j76132590289126_2_alg».proof.Proof.Gen.ReferenceIdeal.Read
import proofs.«134933_j76132590289126_2_alg».proof.Proof.RefRows
import proofs.«134933_j76132590289126_2_alg».proof.Proof.Blocks
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments, the kernel's output array and the reference's result are both the
    array whose entry `(r, k, h)` is the readout of rows `r` of the two inputs at channel `k`, column `h`. -/
theorem algebraic : Cert.algebraic_KernelIdeal_ReferenceIdeal := by
  intro m ρ m' ρ' _ hagree
  refine ⟨fun c => Cert.KernelBlocks.result m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq]
  funext i
  rw [Cert.RefRows.out_apply]
  obtain ⟨a0, a1, a2, a3, a4, a5, a6, a7, a8⟩ := hagree c
  rw [a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
